-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 70
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x1, .f32⟩
  | .hbm, ⟨69, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_11 : Ref sig .tc := ⟨.hbm, 58, rfl⟩
abbrev main_v42 : Ref sig .tc := ⟨.hbm, 59, rfl⟩
abbrev main_v43 : Ref sig .tc := ⟨.hbm, 60, rfl⟩
abbrev main_c_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v49) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_11 : Ref sig .tc := ⟨.hbm, 58, rfl⟩
abbrev main_v42 : Ref sig .tc := ⟨.hbm, 59, rfl⟩
abbrev main_v43 : Ref sig .tc := ⟨.hbm, 60, rfl⟩
abbrev main_c_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_cst : Ref sig .tc := ⟨.hbm, 72, rfl⟩
abbrev main_call0_v0 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GcnSpec.lean ====
/-
  One graph-convolution layer, stated once over the extended reals with no program in sight.

  Given the aggregated features `A` (one row of 128 numbers per node), the degrees `D` kept as a column
  (one number per node), and the weight `W` (128 × 128), entry `(r, q)` of the layer's result is

      max ( ∑ₖ (A r k / D r) · W k q , 0 ).

  The quotient is the extended reals' total division (it has a value at a zero degree and at the
  infinities), the sum and the products are the extended reals' own, and the clamp is the maximum with
  the number the all-zero f32 word denotes. Both programs of this certificate are shown to compute
  exactly this function of the same `A`, `D` and `W`; no law of arithmetic is needed to join them, only
  the reading of each program's indices.
-/
import Idealize.ShloMosaic.PureOps.Ideal
import Idealize.ShloMosaic.Lib.ValueIdx

noncomputable section

open Idealize.ShloMosaic Idealize.ShloMosaic.ValueIdx
open scoped BigOperators

namespace Cert.Gcn

/-- Entry `(r, q)` of the layer: row `r` of the aggregate, each number divided by the node's degree,
    contracted with column `q` of the weight, then clamped below at zero. -/
def entry (A : (⟨2, ![100000, 128]⟩ : Shape).Idx → EReal) (D : (⟨2, ![100000, 1]⟩ : Shape).Idx → EReal)
    (W : (⟨2, ![128, 128]⟩ : Shape).Idx → EReal) (r : Fin 100000) (q : Fin 128) : EReal :=
  max (∑ k : Fin 128, Ideal.div (A (ix2 r k)) (D (ix2 r (0 : Fin 1))) * W (ix2 k q)) (Ideal.ofBits .f32 0x00000000#32)

/-- The layer's whole result, index by index. -/
def layer (A : (⟨2, ![100000, 128]⟩ : Shape).Idx → EReal) (D : (⟨2, ![100000, 1]⟩ : Shape).Idx → EReal)
    (W : (⟨2, ![128, 128]⟩ : Shape).Idx → EReal) : (⟨2, ![100000, 128]⟩ : Shape).Idx → EReal :=
  fun i => entry A D W (i 0) (i 1)

/-- The result read at a row and a column. -/
theorem layer_ix2 (A : (⟨2, ![100000, 128]⟩ : Shape).Idx → EReal) (D : (⟨2, ![100000, 1]⟩ : Shape).Idx → EReal)
    (W : (⟨2, ![128, 128]⟩ : Shape).Idx → EReal) (r : Fin 100000) (q : Fin 128) :
    layer A D W (ix2 r q) = entry A D W r q := rfl

end Cert.Gcn

end
-- ==== Proof.BodyEntry.lean ====
/-
  What the kernel's body stores, read at one entry of its block. The body loads a block of 5000 rows
  of the aggregate, the same rows of the degree column and the whole weight; it spreads each row's
  degree along the row, divides, contracts the quotient with the weight over the 128 features into a
  zero accumulator, and clamps below at the zero word. Over the extended reals the two changes of float
  format on the way into the product are the identity, so entry `(p, q)` of the stored block is

      max ( ∑ₖ (a p k / d p) · w k q , 0 )

  of the three loaded blocks `a`, `d`, `w`.
-/
import proofs.«130434_j63299228009239_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.Gcn

open Cert.KernelIdeal Cert.KernelIdeal.Gen

/-- The product's left operand is read at the output's row; -/
theorem body_lhs_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- and at the contracted feature; -/
theorem body_lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- the right operand at the contracted feature -/
theorem body_rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- and at the output's column. -/
theorem body_rhs_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry `(p, q)` of the block the body stores, from the three blocks it loads. -/
theorem body_entry (a : Vec Ideal S5000x128 .f32) (d : Vec Ideal S5000x1 .f32) (w : Vec Ideal S128x128 .f32)
    (p : Fin 5000) (q : Fin 128) :
    k0_pay1 (F := Ideal) a d w (ix2 p q)
      = max (∑ k : Fin 128, Ideal.div (a (ix2 p k)) (d (ix2 p (0 : Fin 1))) * w (ix2 k q)) (Ideal.ofBits .f32 0x00000000#32) := by
  unfold k0_pay1
  refine (maximumf_apply _ _ _).trans ?_
  refine congrArg₂ max ?_ rfl
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun x => Fin.ext (by
      match x with
      | ⟨0, _⟩ => exact body_lhs_row _ _
      | ⟨1, _⟩ => exact (body_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun x => Fin.ext (by
      match x with
      | ⟨0, _⟩ => exact (body_rhs_row _ _).trans hk
      | ⟨1, _⟩ => exact body_rhs_col _ _)
  rw [el, er]
  refine congrArg₂ (· * ·) ?_ rfl
  show Ideal.div (shapeCast S5000x128 a shapeCasts_S5000x128_S5000x128 (ix2 p k))
      (broadcastTo S5000x128 (shapeCast S5000x1 d shapeCasts_S5000x1_S5000x1) broadcasts_S5000x1_S5000x128 (ix2 p k)) = _
  refine congrArg₂ Ideal.div ?_ ?_
  · rw [shapeCast_self]
  · rw [shapeCast_self]
    exact broadcastTo_apply d broadcasts_S5000x1_S5000x128 (ix2 p k) (ix2 p (0 : Fin 1)) (fun x => by
      match x with
      | ⟨0, _⟩ => rfl
      | ⟨1, _⟩ => rfl)

end Cert.Gcn

end
-- ==== Proof.HostPrefix.lean ====
/-
  The two programs share the first half of their text: from the edge list both build the degree of
  every node (a scatter of ones at the sources, then at the targets) and the aggregate (the rows of the
  features gathered at one end of every edge and scattered onto the other end, both ways, plus the
  features themselves). None of that is opened here. What the kernel's region finds in its first two
  operand arrays is, operation for operation, the term the reference's run names for its own aggregate
  and its own degree column; read at the same arguments the two are one term.
-/
import proofs.«130434_j63299228009239_1_alg».proof.Proof.Gen.KernelIdeal.Frame
import proofs.«130434_j63299228009239_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.Gcn

open Cert.KernelIdeal Cert.KernelIdeal.Gen

variable (m : (ℓ : Loc nD τ sig) → Buf (Elt Ideal) ℓ)

set_option maxHeartbeats 4000000 in
set_option maxRecDepth 65536 in
/-- The aggregate the region is entered with is the reference's aggregate of the same features and edges. -/
theorem aggregate_eq (c : Dev nD) :
    (V m c main_v49 : S100000x128.Idx → EReal) =
      Cert.ReferenceIdeal.Read.val_main_v49 (F := Ideal) (m ((c : Thread nD τ).loc main_arg0)) (m ((c : Thread nD τ).loc main_arg2)) := by
  dsimp only [Gen.V, Gen.hostOps0]
  after_results_simp
  rfl

set_option maxHeartbeats 4000000 in
set_option maxRecDepth 65536 in
/-- The degree column the region is entered with is the reference's degree column of the same edges. -/
theorem degree_eq (c : Dev nD) :
    (V m c main_v50 : S100000x1.Idx → EReal) =
      Cert.ReferenceIdeal.Read.val_main_v50 (F := Ideal) (m ((c : Thread nD τ).loc main_arg2)) := by
  dsimp only [Gen.V, Gen.hostOps0]
  after_results_simp
  rfl

end Cert.Gcn

end
-- ==== Proof.KernelLayer.lean ====
/-
  From the kernel's blocks to its whole result. The grid has twenty points; point `t` reads rows
  `5000·t … 5000·t + 4999` of the aggregate and of the degree column, the whole weight, and writes the
  same rows of the result. So an entry of a loaded block is an entry of the array the region was entered
  with, at the row shifted by `5000·t`; what point `t` writes back is rows `5000·t …` of the layer of those
  three arrays; every row of the result lies in the block of the point `row / 5000`; and the result array
  ends as the layer of the aggregate, the degree column and the weight. The aggregate and the degree
  column are then the reference's own terms of the arguments, and the weight is the argument itself.
-/
import proofs.«130434_j63299228009239_1_alg».proof.Proof.Gen.KernelIdeal.Value
import proofs.«130434_j63299228009239_1_alg».proof.Proof.GcnSpec
import proofs.«130434_j63299228009239_1_alg».proof.Proof.BodyEntry
import proofs.«130434_j63299228009239_1_alg».proof.Proof.HostPrefix
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.Gcn

open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the aggregate's, the degree column's and the result's
    at block row `t`, the weight's always at the origin (decided over the twenty points). -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the block of an array of the aggregate's shape that point `t` reads is entry
    `(5000·t + p, k)` of the array. -/
theorem aggregate_block (t : Fin cfg0.N) (A : S100000x128.Idx → EReal) (p : Fin 5000) (k : Fin 128) (r : Fin 100000)
    (hr : r.val = t.val * 5000 + p.val) :
    (((cfg0.win 0).blk t).view.read (Elt Ideal) A : Vec Ideal S5000x128 .f32) (ix2 p k) = A (ix2 r k) := by
  show A (((cfg0.win 0).blk t).view.emb (ix2 p k)) = A (ix2 r k)
  refine congrArg A (funext fun a => Fin.ext ?_)
  obtain ⟨e0, e1, -⟩ := block_rows t
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Entry `(p, 0)` of the block of a column of the degrees' shape that point `t` reads is the column's
    entry of row `5000·t + p`. -/
theorem degree_block (t : Fin cfg0.N) (D : S100000x1.Idx → EReal) (p : Fin 5000) (r : Fin 100000)
    (hr : r.val = t.val * 5000 + p.val) :
    (((cfg0.win 1).blk t).view.read (Elt Ideal) D : Vec Ideal S5000x1 .f32) (ix2 p (0 : Fin 1)) = D (ix2 r (0 : Fin 1)) := by
  show D (((cfg0.win 1).blk t).view.emb (ix2 p (0 : Fin 1))) = D (ix2 r (0 : Fin 1))
  refine congrArg D (funext fun a => Fin.ext ?_)
  obtain ⟨-, -, e0, e1, -⟩ := block_rows t
  match a with
  | ⟨0, _⟩ => show win0_1.index t (0 : Fin 2) * 5000 + 1 * p.val = r.val; rw [e0, hr]; omega
  | ⟨1, _⟩ => show win0_1.index t (1 : Fin 2) * 1 + 1 * (0 : Fin 1).val = (0 : Fin 1).val; rw [e1]; rfl

/-- The block of a matrix of the weight's shape that any point reads is the matrix. -/
theorem weight_block (t : Fin cfg0.N) (W : S128x128.Idx → EReal) (k q : Fin 128) :
    (((cfg0.win 2).blk t).view.read (Elt Ideal) W : Vec Ideal S128x128 .f32) (ix2 k q) = W (ix2 k q) := by
  show W (((cfg0.win 2).blk t).view.emb (ix2 k q)) = W (ix2 k q)
  refine congrArg W (funext fun a => Fin.ext ?_)
  obtain ⟨-, -, -, -, e0, e1, -⟩ := block_rows t
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- For any three arrays of the operands' shapes: the body's result on their blocks at point `t` is rows
    `5000·t …` of their layer. -/
theorem block_of_layer (t : Fin cfg0.N) (A : S100000x128.Idx → EReal) (D : S100000x1.Idx → EReal) (W : S128x128.Idx → EReal) :
    (cfg0.win 3).cut (grid0.coords t)
        (k0_pay1 (F := Ideal) (((cfg0.win 0).blk t).view.read (Elt Ideal) A) (((cfg0.win 1).blk t).view.read (Elt Ideal) D)
          (((cfg0.win 2).blk t).view.read (Elt Ideal) W))
      = ((cfg0.win 3).blk t).view.read (Elt Ideal) (layer A D W) := by
  funext j
  obtain ⟨p, q, rfl⟩ : ∃ (p : Fin 5000) (q : Fin 128), j = ix2 p q := ⟨j 0, j 1, eq_ix2 j⟩
  have hN : cfg0.N = 20 := N_0
  have hlt : t.val * 5000 + p.val < 100000 := by have := t.isLt; have := p.isLt; omega
  obtain ⟨-, -, -, -, -, -, e0, e1⟩ := block_rows t
  have hout : ((cfg0.win 3).blk t).view.emb (ix2 p q) = (ix2 (⟨t.val * 5000 + p.val, hlt⟩ : Fin 100000) q : S100000x128.Idx) :=
    funext fun a => Fin.ext (by
      match a with
      | ⟨0, _⟩ => show win0_3.index t (0 : Fin 2) * 5000 + 1 * p.val = t.val * 5000 + p.val; rw [e0]; omega
      | ⟨1, _⟩ => show win0_3.index t (1 : Fin 2) * 128 + 1 * q.val = q.val; rw [e1]; omega)
  show k0_pay1 (F := Ideal) (((cfg0.win 0).blk t).view.read (Elt Ideal) A) (((cfg0.win 1).blk t).view.read (Elt Ideal) D)
      (((cfg0.win 2).blk t).view.read (Elt Ideal) W) (ix2 p q)
    = layer A D W (((cfg0.win 3).blk t).view.emb (ix2 p q))
  rw [hout, layer_ix2]
  refine (body_entry _ _ _ p q).trans ?_
  unfold entry
  refine congrArg₂ max (Finset.sum_congr rfl fun k _ => ?_) rfl
  rw [aggregate_block t A p k ⟨t.val * 5000 + p.val, hlt⟩ rfl, degree_block t D p ⟨t.val * 5000 + p.val, hlt⟩ rfl,
    weight_block t W k q]

/-- What point `t` writes back is rows `5000·t …` of the layer of the arrays the region was entered with. -/
theorem flushed_eq (c : Dev nD) (t : Fin cfg0.N) :
    (dats m 0 c).flushed 3 t = ((cfg0.win 3).blk t).view.read (Elt Ideal)
      (layer (V m c (Pipeline.arrRef spec0 0)) (V m c (Pipeline.arrRef spec0 1)) (V m c (Pipeline.arrRef spec0 2))) := by
  rw [Cert.KernelIdeal.Value.flushed3]
  unfold out0_3
  rw [View.canon_unit_zero zero_offsets]
  simp only [View.ld_unit_zero (S := S5000x128) zero_offsets, View.ld_unit_zero (S := S5000x1) zero_offsets,
    View.ld_unit_zero (S := S128x128) zero_offsets]
  unfold iblk
  exact block_of_layer t (V m c (Pipeline.arrRef spec0 0)) (V m c (Pipeline.arrRef spec0 1)) (V m c (Pipeline.arrRef spec0 2))

/-- An index of the result is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v51).slice (win0_3.rect t)).set ↔ _
  rw [View.set_slice_whole, Rect.mem_set_unit]
  exact Iff.rfl

/-- Every entry of the result is written by the point its row's block belongs to. -/
theorem covered (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  refine ⟨⟨(i 0).val / 5000, by omega⟩, flush0_3 _, ?_⟩
  rw [mem_block]
  obtain ⟨-, -, -, -, -, -, e0, e1⟩ := block_rows ⟨(i 0).val / 5000, by omega⟩
  intro a
  match a with
  | ⟨0, _⟩ =>
    show win0_3.index ⟨(i 0).val / 5000, _⟩ (0 : Fin 2) * 5000 ≤ (i 0).val
      ∧ (i 0).val < win0_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, _⟩ (1 : Fin 2) * 128 ≤ (i 1).val
      ∧ (i 1).val < win0_3.index ⟨(i 0).val / 5000, _⟩ (1 : Fin 2) * 128 + 128
    rw [e1]; omega

/-- The result array after the run is the layer of the arrays the region was entered with. -/
theorem result_array (c : Dev nD) :
    (dats m 0 c).arrAt 3 cfg0.N
      = layer (V m c (Pipeline.arrRef spec0 0)) (V m c (Pipeline.arrRef spec0 1)) (V m c (Pipeline.arrRef spec0 2)) :=
  (dats m 0 c).arrAt_eq_of_cover 3 _ (fun t _ => flushed_eq m c t) covered

/-- The region's first operand array is the reference's aggregate of the launch arguments, -/
theorem entered_aggregate (c : Dev nD) :
    (V m c (Pipeline.arrRef spec0 0) : S100000x128.Idx → EReal)
      = Cert.ReferenceIdeal.Read.val_main_v49 (F := Ideal) (m ((c : Thread nD τ).loc main_arg0)) (m ((c : Thread nD τ).loc main_arg2)) :=
  aggregate_eq m c

/-- its second the reference's degree column, -/
theorem entered_degree (c : Dev nD) :
    (V m c (Pipeline.arrRef spec0 1) : S100000x1.Idx → EReal)
      = Cert.ReferenceIdeal.Read.val_main_v50 (F := Ideal) (m ((c : Thread nD τ).loc main_arg2)) :=
  degree_eq m c

/-- and its third the weight as launched. -/
theorem entered_weight (c : Dev nD) :
    V m c (Pipeline.arrRef spec0 2) = m ((c : Thread nD τ).loc main_arg1) :=
  V_main_arg1 m c

/-- The kernel's run: its result ends as the layer of the reference's aggregate and degree column of the
    features and the edges it was launched with, and of the weight; the arguments are unchanged. -/
theorem run : θ_run defs (onTc (τ := τ) (main (F := Ideal))) ⟨m, fun _ => 0, ρ⟩ fun r => ∀ c : Dev nD,
      r.2.mem ((c : Thread nD τ).loc main_v51)
        = layer (Cert.ReferenceIdeal.Read.val_main_v49 (F := Ideal) (m ((c : Thread nD τ).loc main_arg0)) (m ((c : Thread nD τ).loc main_arg2)))
            (Cert.ReferenceIdeal.Read.val_main_v50 (F := Ideal) (m ((c : Thread nD τ).loc main_arg2)))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by
      rw [result_array m c, entered_aggregate m c, entered_degree m c, entered_weight m c]), (h c).2⟩)
    (Cert.KernelIdeal.Value.run_blocks m ρ)

end Cert.Gcn

end
-- ==== Proof.RefLayer.lean ====
/-
  The reference's last five operations, read at an index: the degree column is broadcast along the
  rows, the aggregate is divided by it entry by entry, the quotient is contracted with the weight over
  its second axis, and the product is clamped below at the zero word. At row `r` and column `q` that is
  the layer's entry `(r, q)` of the reference's own aggregate and degree column.
-/
import proofs.«130434_j63299228009239_1_alg».proof.Proof.Gen.ReferenceIdeal.Read
import proofs.«130434_j63299228009239_1_alg».proof.Proof.GcnSpec

noncomputable section

open Idealize.ShloMosaic Idealize.ShloMosaic.ValueIdx
open scoped BigOperators

namespace Cert.Gcn

open Cert.ReferenceIdeal Cert.ReferenceIdeal.Read

/-- The contraction reads the quotient at row `r`, column `k`. -/
theorem ref_lhs (r : Fin 100000) (q k : Fin 128) : lidx_main_v53 (ix2 r q) k = ix2 r k :=
  funext fun a => Fin.ext (by match a with | ⟨0, _⟩ => rfl | ⟨1, _⟩ => rfl)

/-- The contraction reads the weight at row `k`, column `q`. -/
theorem ref_rhs (r : Fin 100000) (q k : Fin 128) : ridx_main_v53 (ix2 r q) k = ix2 k q :=
  funext fun a => Fin.ext (by match a with | ⟨0, _⟩ => rfl | ⟨1, _⟩ => rfl)

/-- The broadcast degree at row `r`, any column, is the degree column's entry of row `r`. -/
theorem ref_deg (r : Fin 100000) (k : Fin 128) : idx_main_v51 (ix2 r k) = ix2 r (0 : Fin 1) :=
  funext fun a => Fin.ext (by match a with | ⟨0, _⟩ => rfl | ⟨1, _⟩ => rfl)

/-- The reference's result is the layer of its own aggregate, its own degree column and the weight. -/
theorem ref_is_layer (x0 : (⟨S100000x128, .f32⟩ : BufTy).Contents (Elt Ideal)) (x1 : (⟨S128x128, .f32⟩ : BufTy).Contents (Elt Ideal))
    (x2 : (⟨S2x1600000, .i32⟩ : BufTy).Contents (Elt Ideal)) :
    val_main_v54 (F := Ideal) x0 x1 x2
      = layer (val_main_v49 (F := Ideal) x0 x2) (val_main_v50 (F := Ideal) x2) x1 := by
  funext i
  obtain ⟨r, q, rfl⟩ : ∃ (r : Fin 100000) (q : Fin 128), i = ix2 r q := ⟨i 0, i 1, eq_ix2 i⟩
  rw [val_main_v54_apply, val_main_v53_apply, val_main_call0_v0_apply, val_main_call0_cst_apply, layer_ix2]
  unfold entry
  refine congrArg₂ max (Finset.sum_congr rfl fun k _ => ?_) rfl
  rw [ref_lhs, ref_rhs, val_main_v52_apply, val_main_v51_apply, ref_deg]
  rfl

end Cert.Gcn

end
-- ==== Proof.lean ====
/-
  A graph-convolution layer computed two ways, shown equal over the extended reals.

  Both programs first build, from the edge list alone, every node's degree (a scatter of ones at the
  edges' sources and at their targets) and, from the features and the edge list, the aggregate (each
  edge's two end rows of the features gathered and scattered onto the other end, plus the features).
  That common first half is never opened: it is the same chain of operations in both programs, and the
  only fact used about it is that the same arguments give the same aggregate `A` and degree column `D`.

  The reference then divides `A` by the degrees, multiplies by the weight `W` and clamps at zero, on
  whole arrays. The kernel does the same on twenty blocks of 5000 rows, rounding to a shorter float
  format on the way into the product, which over the extended reals is the identity. Entry `(r, q)` of
  either result is `max (∑ₖ (A r k / D r) · W k q, 0)` — the sum over the same 128 features in the same
  order on both sides, so nothing about the arithmetic of the extended reals is used, and the
  precondition (finite inputs) is never opened: the equality holds at every input, a zero degree
  included, since both sides form the same total quotient there.

  The three frames are the generated ones (the reference's is its generated run with the result
  dropped); the idealisation rewrote nothing, so that conjunct is trivial.
-/
import proofs.«130434_j63299228009239_1_alg».proof.Defs
import proofs.«130434_j63299228009239_1_alg».proof.Proof.Gen.Kernel
import proofs.«130434_j63299228009239_1_alg».proof.Proof.Gen.Kernel.Skeleton
import proofs.«130434_j63299228009239_1_alg».proof.Proof.Gen.Kernel.Launch
import proofs.«130434_j63299228009239_1_alg».proof.Proof.Gen.Kernel.Points
import proofs.«130434_j63299228009239_1_alg».proof.Proof.Gen.Kernel.Frame
import proofs.«130434_j63299228009239_1_alg».proof.Proof.Gen.KernelIdeal
import proofs.«130434_j63299228009239_1_alg».proof.Proof.Gen.KernelIdeal.Skeleton
import proofs.«130434_j63299228009239_1_alg».proof.Proof.Gen.KernelIdeal.Launch
import proofs.«130434_j63299228009239_1_alg».proof.Proof.Gen.KernelIdeal.Points
import proofs.«130434_j63299228009239_1_alg».proof.Proof.Gen.KernelIdeal.Frame
import proofs.«130434_j63299228009239_1_alg».proof.Proof.Gen.ReferenceIdeal
import proofs.«130434_j63299228009239_1_alg».proof.Proof.Gen.Pre_finite_inputs
import proofs.«130434_j63299228009239_1_alg».proof.Proof.Gen.KernelIdeal.Value
import proofs.«130434_j63299228009239_1_alg».proof.Proof.Gen.ReferenceIdeal.Run
import proofs.«130434_j63299228009239_1_alg».proof.Proof.Gen.ReferenceIdeal.Read
import proofs.«130434_j63299228009239_1_alg».proof.Proof.KernelLayer
import proofs.«130434_j63299228009239_1_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both results are the layer of the aggregate, the degree column and the weight that the shared
    arguments determine: the kernel's by its blocks, the reference's by its last five operations. -/
theorem algebraic : Cert.algebraic_KernelIdeal_ReferenceIdeal := by
  intro m ρ m' ρ' _ hagree
  refine ⟨_, Cert.Gcn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.Gcn.ref_is_layer, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
